-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x1 .f32) (main_arg8 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg7
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg8 main_v33

def fn {F : FTy → Type} [FloatOps F] (main_arg0 : FVec F S50000x64 .f32) (main_arg1 : IVec S2x800000 32) (main_arg2 : FVec F S800000 .f32) (main_arg3 : FVec F S64x64 .f32) (main_arg4 : FVec F S64 .f32) (main_arg5 : FVec F S64x64 .f32) (main_arg6 : FVec F S64 .f32) (main_arg7 : FVec F S64x1 .f32) (main_arg8 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S10000x64 : Shape := ⟨2, ![10000, 64]⟩
abbrev S850000x64 : Shape := ⟨2, ![850000, 64]⟩
abbrev S1x64 : Shape := ⟨2, ![1, 64]⟩
abbrev S1x1 : Shape := ⟨2, ![1, 1]⟩
abbrev S50000x1 : Shape := ⟨2, ![50000, 1]⟩
abbrev S10000x1 : Shape := ⟨2, ![10000, 1]⟩

abbrev nBuf : Space → Nat
  | .hbm => 91
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000, .i32⟩
  | .hbm, ⟨14, _⟩ => ⟨S850000, .i32⟩
  | .hbm, ⟨15, _⟩ => ⟨S850000, .i32⟩
  | .hbm, ⟨16, _⟩ => ⟨S_, .f32⟩
  | .hbm, ⟨17, _⟩ => ⟨S50000, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x64, .bf16⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x64, .bf16⟩
  | .hbm, ⟨61, _⟩ => ⟨S850000x64, .f32⟩
  | .hbm, ⟨62, _⟩ => ⟨S850000x1, .f32⟩
  | .hbm, ⟨63, _⟩ => ⟨S850000x64, .f32⟩
  | .hbm, ⟨64, _⟩ => ⟨S850000x64, .f32⟩
  | .hbm, ⟨65, _⟩ => ⟨S_, .f32⟩
  | .hbm, ⟨66, _⟩ => ⟨S50000x64, .f32⟩
  | .hbm, ⟨67, _⟩ => ⟨S850000x1, .i32⟩
  | .hbm, ⟨68, _⟩ => ⟨S50000x64, .f32⟩
  | .hbm, ⟨69, _⟩ => ⟨S1x64, .f32⟩
  | .hbm, ⟨70, _⟩ => ⟨S50000x64, .bf16⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x64, .bf16⟩
  | .hbm, ⟨80, _⟩ => ⟨S850000x64, .f32⟩
  | .hbm, ⟨81, _⟩ => ⟨S850000x1, .f32⟩
  | .hbm, ⟨82, _⟩ => ⟨S850000x64, .f32⟩
  | .hbm, ⟨83, _⟩ => ⟨S850000x64, .f32⟩
  | .hbm, ⟨84, _⟩ => ⟨S_, .f32⟩
  | .hbm, ⟨85, _⟩ => ⟨S50000x64, .f32⟩
  | .hbm, ⟨86, _⟩ => ⟨S850000x1, .i32⟩
  | .hbm, ⟨87, _⟩ => ⟨S50000x64, .f32⟩
  | .hbm, ⟨88, _⟩ => ⟨S1x64, .f32⟩
  | .hbm, ⟨89, _⟩ => ⟨S1x1, .f32⟩
  | .hbm, ⟨90, _⟩ => ⟨S50000x1, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .bf16⟩
  | .local _ .vmem, ⟨4, _⟩ => ⟨S10000x64, .bf16⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .bf16⟩
  | .local _ .vmem, ⟨10, _⟩ => ⟨S10000x64, .bf16⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x1, .f32⟩
  | .local _ .vmem, ⟨15, _⟩ => ⟨S1x1, .f32⟩
  | .local _ .vmem, ⟨16, _⟩ => ⟨S10000x1, .f32⟩
  | .local _ .vmem, ⟨17, _⟩ => ⟨S10000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  packedbf16_S10000x64_S10000x64_0_0 : (Rect.unit (s := S10000x64) ![0, 0] S10000x64.size inb_S10000x64_S10000x64_0_0).PackedRows (EltTy.packing .bf16)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x64_S64x64_S10000x64_1_0_0_1_n_n_wf : DotDims.WF S10000x64 S64x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .bf16 = 32 ∨ (Rect.block (s := S50000x64) S10000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S50000x64.size a
  hwx1_3 : ∀ i : grid1.Coords, EltTy.bits .bf16 = 32 ∨ (Rect.block (s := S50000x64) S10000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x1.size a ≤ S50000x1.size a
  hwx2_4 : ∀ i : grid2.Coords, EltTy.bits .f32 = 32 ∨ (Rect.block (s := S50000x1) S10000x1.size (cc2_transform_4 i) (hinb2_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S10000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x1 : Shape := ⟨2, ![50000, 1]⟩
abbrev S1x1 : Shape := ⟨2, ![1, 1]⟩

abbrev nBuf : Space → Nat
  | .hbm => 139
  | .vmem => 0
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S64x64, .f32⟩
  | 4 => ⟨S64, .f32⟩
  | 5 => ⟨S64x64, .f32⟩
  | 6 => ⟨S64, .f32⟩
  | 7 => ⟨S64x1, .f32⟩
  | 8 => ⟨S1, .f32⟩
  | 9 => ⟨S1x800000, .i32⟩
  | 10 => ⟨S800000, .i32⟩
  | 11 => ⟨S1x800000, .i32⟩
  | 12 => ⟨S800000, .i32⟩
  | 13 => ⟨S50000x64, .f32⟩
  | 14 => ⟨S50000, .i32⟩
  | 15 => ⟨S850000, .i32⟩
  | 16 => ⟨S850000, .i32⟩
  | 17 => ⟨S_, .f32⟩
  | 18 => ⟨S50000, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S850000x1, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x64, .f32⟩
  | 62 => ⟨S850000x64, .f32⟩
  | 63 => ⟨S850000x64, .f32⟩
  | 64 => ⟨S_, .f32⟩
  | 65 => ⟨S50000x64, .f32⟩
  | 66 => ⟨S850000x1, .i32⟩
  | 67 => ⟨S50000x64, .f32⟩
  | 68 => ⟨S1x64, .f32⟩
  | 69 => ⟨S50000x64, .f32⟩
  | 70 => ⟨S50000x64, .f32⟩
  | 71 => ⟨S_, .f32⟩
  | 72 => ⟨S50000x64, .f32⟩
  | 73 => ⟨S50000x64, .f32⟩
  | 74 => ⟨S50000x64, .f32⟩
  | 75 => ⟨S50000, .i32⟩
  | 76 => ⟨S850000, .i32⟩
  | 77 => ⟨S850000, .i32⟩
  | 78 => ⟨S_, .f32⟩
  | 79 => ⟨S50000, .f32⟩
  | 80 => ⟨S850000, .f32⟩
  | 81 => ⟨S_, .f32⟩
  | 82 => ⟨S50000, .f32⟩
  | 83 => ⟨S850000x1, .i32⟩
  | 84 => ⟨S50000, .f32⟩
  | 85 => ⟨S_, .f32⟩
  | 86 => ⟨S50000, .f32⟩
  | 87 => ⟨S50000, .i1⟩
  | 88 => ⟨S50000, .f32⟩
  | 89 => ⟨S_, .f32⟩
  | 90 => ⟨S_, .f32⟩
  | 91 => ⟨S50000, .f32⟩
  | 92 => ⟨S50000, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000, .f32⟩
  | 102 => ⟨S850000, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000, .f32⟩
  | 112 => ⟨S850000, .f32⟩
  | 113 => ⟨S850000x1, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000x64, .f32⟩
  | 123 => ⟨S850000x64, .f32⟩
  | 124 => ⟨S850000x64, .f32⟩
  | 125 => ⟨S_, .f32⟩
  | 126 => ⟨S50000x64, .f32⟩
  | 127 => ⟨S850000x1, .i32⟩
  | _ => ⟨S50000x64, .f32⟩

abbrev hbmTy0_1 (i : Nat) : BufTy := match i % 128 with
  | 0 => ⟨S50000x64, .f32⟩
  | 1 => ⟨S1x64, .f32⟩
  | 2 => ⟨S50000x64, .f32⟩
  | 3 => ⟨S50000x64, .f32⟩
  | 4 => ⟨S_, .f32⟩
  | 5 => ⟨S50000x64, .f32⟩
  | 6 => ⟨S50000x64, .f32⟩
  | 7 => ⟨S50000x1, .f32⟩
  | 8 => ⟨S1x1, .f32⟩
  | 9 => ⟨S50000x1, .f32⟩
  | 10 => ⟨S50000x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v62 : Ref sig .tc := ⟨.hbm, 92, rfl⟩
abbrev main_c_13 : Ref sig .tc := ⟨.hbm, 93, rfl⟩
abbrev main_v63 : Ref sig .tc := ⟨.hbm, 94, rfl⟩
abbrev main_v64 : Ref sig .tc := ⟨.hbm, 95, rfl⟩
abbrev main_c_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_15 : Ref sig .tc := ⟨.hbm, 103, rfl⟩
abbrev main_v71 : Ref sig .tc := ⟨.hbm, 104, rfl⟩
abbrev main_v72 : Ref sig .tc := ⟨.hbm, 105, rfl⟩
abbrev main_c_16 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_17 : Ref sig .tc := ⟨.hbm, 114, rfl⟩
abbrev main_v80 : Ref sig .tc := ⟨.hbm, 115, rfl⟩
abbrev main_v81 : Ref sig .tc := ⟨.hbm, 116, rfl⟩
abbrev main_c_18 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_19 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_call3_cst : Ref sig .tc := ⟨.hbm, 132, rfl⟩
abbrev main_call3_v0 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S50000x64_S64x64_S50000x64_1_0_0_1_n_n_wf : DotDims.WF S50000x64 S64x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x1_S50000x1_1_0_0_1_n_n_wf : DotDims.WF S50000x64 S64x1 S50000x1 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KRun.lean ====
/-
  The idealized kernel program's run with its result named.  The program is three launches among stretches of host
  operations; its last launch writes the result array through its output window (window 4 of that launch), so after
  the run the result array holds what that launch's write-backs leave, `(dat2 … c).arrAt 4 N`, every argument array
  as launched.
-/
import proofs.«130539_j47115791237145_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at what the third
    launch's write-backs leave of its output window, and the argument arrays end as launched. -/
theorem run : θ_run defs (onTc (τ := τ) (main (F := F))) ⟨m, fun _ => 0, ρ⟩ (fun r => ∀ c : Dev nD,
      r.2.mem ((c.tc : Thread nD τ).loc main_v65) = (dat2 (V7 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨(h c _ (mem_uc main_v65 (by decide))).trans (W8_arr m ρ c 4),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.Named

end
-- ==== Proof.Layers.lean ====
/-
  The three dense layers of the two-layer graph convolution network, as whole-array functions on the extended reals,
  written with the reference program's own host operations: a matrix product with a weight matrix; the same after
  adding a bias row to every row and clamping below at zero; and the last one followed by adding one more scalar bias.
-/
import proofs.«130539_j47115791237145_2_alg».proof.Proof.Gen.ReferenceIdeal.Read

noncomputable section

namespace Cert.Layers

open Cert.ReferenceIdeal Cert.ReferenceIdeal.Gen Idealize.ShloMosaic Idealize.ShloMosaic.TcCoe Idealize.SL.Sem

variable {F : FTy → Type} [FloatOps F]

/-- `x · W`: rows of 64 features times a 64×64 weight matrix. -/
def dense1 (x : (⟨S50000x64, .f32⟩ : BufTy).Contents (Elt F)) (W : (⟨S64x64, .f32⟩ : BufTy).Contents (Elt F)) :
    (⟨S50000x64, .f32⟩ : BufTy).Contents (Elt F) :=
  Host.dotGeneral dot_S50000x64_S64x64_S50000x64_1_0_0_1_n_n none x W

/-- `max (a + b, 0)`, the bias row `b` (given as a 1×64 array) added to every row. -/
def reluBias (a : (⟨S50000x64, .f32⟩ : BufTy).Contents (Elt F)) (b : (⟨S1x64, .f32⟩ : BufTy).Contents (Elt F)) :
    (⟨S50000x64, .f32⟩ : BufTy).Contents (Elt F) :=
  maximumf (addf a (broadcastInDim S50000x64 ![0, 1] bcast_S1x64_S50000x64_0_1 b))
    (broadcastInDim S50000x64 ![] bcast_S_S50000x64 (constant S_ .f32 0x00000000#32))

/-- `max (a + b, 0) · W` with a 64×64 weight matrix. -/
def dense2 (a : (⟨S50000x64, .f32⟩ : BufTy).Contents (Elt F)) (b : (⟨S1x64, .f32⟩ : BufTy).Contents (Elt F))
    (W : (⟨S64x64, .f32⟩ : BufTy).Contents (Elt F)) : (⟨S50000x64, .f32⟩ : BufTy).Contents (Elt F) :=
  dense1 (reluBias a b) W

/-- `max (a + b, 0) · w + c` with a 64×1 weight column and a scalar bias `c` (given as a 1×1 array). -/
def dense3 (a : (⟨S50000x64, .f32⟩ : BufTy).Contents (Elt F)) (b : (⟨S1x64, .f32⟩ : BufTy).Contents (Elt F))
    (W : (⟨S64x1, .f32⟩ : BufTy).Contents (Elt F)) (c : (⟨S1x1, .f32⟩ : BufTy).Contents (Elt F)) :
    (⟨S50000x1, .f32⟩ : BufTy).Contents (Elt F) :=
  addf (Host.dotGeneral dot_S50000x64_S64x1_S50000x1_1_0_0_1_n_n none (reluBias a b) W)
    (broadcastInDim S50000x1 ![0, 1] bcast_S1x1_S50000x1_0_1 c)

end Cert.Layers

end
-- ==== Proof.Region0.lean ====
/-
  The first region of the kernel program, read as a whole-array function. Each of its five grid points takes one
  block of 10000 rows of the 50000×64 array and the whole 64×64 weight matrix, and writes back the block of 10000
  rows of their product; the five blocks tile the rows. On the extended reals the two roundings are the identity
  and the matrix unit's product into a zero accumulator is the plain sum over the contracted axis, which is also
  what the host's product is: so the output array ends as the product of the two arrays the region finds.
-/
import proofs.«130539_j47115791237145_2_alg».proof.Proof.Gen.KernelIdeal.Frame
import proofs.«130539_j47115791237145_2_alg».proof.Proof.Layers
import Idealize.ShloMosaic.Lib.ValueIdx
import Idealize.ShloMosaic.Lib.Pipeline.Value
import Idealize.ShloMosaic.PureOps.Ideal.Laws

noncomputable section

namespace Cert.KernelIdeal.Region0

open Cert.KernelIdeal Idealize.ShloMosaic Idealize.ShloMosaic.TcCoe Idealize.SL.Sem
open Idealize.ShloMosaic.Pipeline (Dat Cfg Window)

/-! ## The block's product at an index -/

/-- Entry (r, k) of a block of rows, for the output entry j = (r, q). -/
abbrev rowAt (j : S10000x64.Idx) (k : Fin 64) : S10000x64.Idx := fun a => match a with
  | ⟨0, _⟩ => ⟨(j 0).val, (j 0).isLt⟩
  | ⟨1, _⟩ => ⟨k.val, k.isLt⟩
/-- Entry (k, q) of the weight matrix, for the output entry j = (r, q). -/
abbrev colAt (j : S10000x64.Idx) (k : Fin 64) : S64x64.Idx := fun a => match a with
  | ⟨0, _⟩ => ⟨k.val, k.isLt⟩
  | ⟨1, _⟩ => ⟨(j 1).val, (j 1).isLt⟩

theorem lhs_0 (j : S10000x64.Idx) (q : dot_S10000x64_S64x64_S10000x64_1_0_0_1_n_n.contr.Idx) :
    (dot_S10000x64_S64x64_S10000x64_1_0_0_1_n_n.lhsIdx j q 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_1 (j : S10000x64.Idx) (q : dot_S10000x64_S64x64_S10000x64_1_0_0_1_n_n.contr.Idx) :
    (dot_S10000x64_S64x64_S10000x64_1_0_0_1_n_n.lhsIdx j q 1).val = (q ⟨0, by decide⟩).val :=
  dot_S10000x64_S64x64_S10000x64_1_0_0_1_n_n.lhsIdx_val_of_single rfl j q
theorem rhs_0 (j : S10000x64.Idx) (q : dot_S10000x64_S64x64_S10000x64_1_0_0_1_n_n.contr.Idx) :
    (dot_S10000x64_S64x64_S10000x64_1_0_0_1_n_n.rhsIdx j q 0).val = (q ⟨0, by decide⟩).val :=
  dot_S10000x64_S64x64_S10000x64_1_0_0_1_n_n.rhsIdx_val_of_single rfl j q
theorem rhs_1 (j : S10000x64.Idx) (q : dot_S10000x64_S64x64_S10000x64_1_0_0_1_n_n.contr.Idx) :
    (dot_S10000x64_S64x64_S10000x64_1_0_0_1_n_n.rhsIdx j q 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- What a grid point stores, at an entry: the roundings are the identity and the product into the zero
    accumulator is the sum over the 64 contracted coordinates of row entry times column entry. -/
theorem pay_apply (v0 : Vec Ideal S10000x64 .f32) (v2 : Vec Ideal S64x64 .f32) (j : S10000x64.Idx) :
    Gen.k0_pay1 (F := Ideal) v0 v2 j = ∑ k : Fin 64, v0 (rowAt j k) * v2 (colAt j k) := by
  unfold Gen.k0_pay1
  show FloatOps.matmul (F := Ideal) (φ₁ := .bf16) (φ₂ := .bf16) dot_S10000x64_S64x64_S10000x64_1_0_0_1_n_n none v0 v2 (constant (F := Ideal) S10000x64 .f32 0x00000000#32) j = _
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx j ((ValueIdx.contrEquiv1 dot_S10000x64_S64x64_S10000x64_1_0_0_1_n_n 64 rfl rfl).symm k) = rowAt j k := funext fun a => Fin.ext (by
    match a with
    | ⟨0, _⟩ => exact lhs_0 _ _
    | ⟨1, _⟩ => exact (lhs_1 _ _).trans hk)
  have er : dot_S10000x64_S64x64_S10000x64_1_0_0_1_n_n.rhsIdx j ((ValueIdx.contrEquiv1 dot_S10000x64_S64x64_S10000x64_1_0_0_1_n_n 64 rfl rfl).symm k) = colAt j k := funext fun a => Fin.ext (by
    match a with
    | ⟨0, _⟩ => exact (rhs_0 _ _).trans hk
    | ⟨1, _⟩ => exact rhs_1 _ _)
  rw [el, er]

/-- The whole-array product at an entry: the same sum, over the whole arrays. -/
theorem dense1_apply (x : (⟨Cert.ReferenceIdeal.S50000x64, .f32⟩ : BufTy).Contents (Elt Ideal))
    (W : (⟨Cert.ReferenceIdeal.S64x64, .f32⟩ : BufTy).Contents (Elt Ideal)) (i : Cert.ReferenceIdeal.S50000x64.Idx) :
    Cert.Layers.dense1 (F := Ideal) x W i
      = ∑ k : Fin 64, x (Cert.ReferenceIdeal.Read.lidx_main_v4 i k) * W (Cert.ReferenceIdeal.Read.ridx_main_v4 i k) :=
  Cert.ReferenceIdeal.Read.val_main_v4_apply x W i

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the five points: the row blocks of the input and of the output move together,
    every other block index is zero, and the output's row-block index is at most four. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 4 :=
  (by decide +kernel : ∀ t : Fin grid0.N, _)

/-- Every row block is some point's. -/
theorem idx_onto : ∀ q0 : Fin 5, ∃ t : Fin cfg0.N, win0_2.index t = ![q0.val, 0] :=
  (by decide +kernel : ∀ q0 : Fin 5, ∃ t : Fin grid0.N, win0_2.index t = ![q0.val, 0])

/-- What point t writes back is block t of the product of the two arrays. -/
theorem flushed_eq (c : Dev nD) (t : Fin cfg0.N) :
    (Gen.dat0 (F := Ideal) V c).flushed 2 t
      = ((cfg0.win 2).blk t).view.read (Elt Ideal) (Cert.Layers.dense1 (F := Ideal) (V c main_arg0) (V c main_arg3)) := by
  show (cfg0.win 2).cut (grid0.coords t) ((Gen.dat0 V c).after 2 t) = _
  rw [Gen.after0_2]
  unfold Gen.out0_2
  rw [View.canon_unit_zero hz]
  simp only [View.ld_unit_zero (S := S10000x64) hz, View.ld_unit_zero (S := S64x64) hz]
  obtain ⟨e0, e1, e2, e3, e4, e5⟩ := idx_facts t
  funext j
  show Gen.k0_pay1 (F := Ideal) (Gen.iblk0 V c 0 t) (Gen.iblk0 V c 1 t) j
    = Cert.Layers.dense1 (F := Ideal) (V c main_arg0) (V c main_arg3) (((cfg0.win 2).blk t).view.emb j)
  refine (pay_apply (Gen.iblk0 V c 0 t) (Gen.iblk0 V c 1 t) j).trans ?_
  refine ((dense1_apply (V c main_arg0) (V c main_arg3) (((cfg0.win 2).blk t).view.emb j)).trans ?_).symm
  refine Finset.sum_congr rfl fun k _ => ?_
  -- the row entry: row (block index × 10000 + r) of the array, column k
  have h0 : ((cfg0.win 0).blk t).view.emb (rowAt j k)
      = Cert.ReferenceIdeal.Read.lidx_main_v4 (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * k.val = k.val; omega
  -- the column entry: the weight matrix is one block, read where it is
  have h1 : ((cfg0.win 1).blk t).view.emb (colAt j k)
      = Cert.ReferenceIdeal.Read.ridx_main_v4 (((cfg0.win 2).blk t).view.emb j) k := by
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  have r0 : Gen.iblk0 V c 0 t (rowAt j k)
      = V c main_arg0 (Cert.ReferenceIdeal.Read.lidx_main_v4 (((cfg0.win 2).blk t).view.emb j) k) :=
    congrArg (V c main_arg0) h0
  have r1 : Gen.iblk0 V c 1 t (colAt j k)
      = V c main_arg3 (Cert.ReferenceIdeal.Read.ridx_main_v4 (((cfg0.win 2).blk t).view.emb j) k) :=
    congrArg (V c main_arg3) h1
  rw [r0, r1]

/-- An index of the array is in point t's block iff each coordinate is in the block's range on its axis. -/
theorem mem_blk (t : Fin cfg0.N) (i : S50000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- The five row blocks tile the array: row r is in the block of the point whose row-block index is r / 10000. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, Gen.flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the first region its output array is the product of the two arrays it finds. -/
theorem array (c : Dev nD) :
    (Gen.dat0 (F := Ideal) V c).arrAt 2 cfg0.N = Cert.Layers.dense1 (F := Ideal) (V c main_arg0) (V c main_arg3) :=
  (Gen.dat0 (F := Ideal) V c).arrAt_eq_of_cover 2 (Cert.Layers.dense1 (F := Ideal) (V c main_arg0) (V c main_arg3))
    (fun t _ => flushed_eq V c t) cover

end Cert.KernelIdeal.Region0

end
-- ==== Proof.Region1.lean ====
/-
  The second region of the kernel program, read as a whole-array function. Each of its five grid points takes one
  block of 10000 rows of the 50000×64 array, the whole 1×64 bias row and the whole 64×64 weight matrix, adds the bias
  row to every row of the block, clamps below at zero, and writes back the block of 10000 rows of the product with the
  weight matrix; the five blocks tile the rows. On the extended reals the roundings are the identity and the matrix
  unit's product into a zero accumulator is the plain sum over the contracted axis, as the host's product is: so the
  output array ends as the second dense layer of the three arrays the region finds.
-/
import proofs.«130539_j47115791237145_2_alg».proof.Proof.Gen.KernelIdeal.Frame
import proofs.«130539_j47115791237145_2_alg».proof.Proof.Layers
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region1

open Cert.KernelIdeal Idealize.ShloMosaic Idealize.ShloMosaic.TcCoe Idealize.SL.Sem
open Idealize.ShloMosaic.Pipeline (Dat Cfg Window)
open Idealize.ShloMosaic.ValueIdx

/-! ## The clamped, bias-added rows at an index -/

/-- The whole-array bias-added and clamped rows at an entry (r, k): max (a (r, k) + b (0, k), 0). -/
theorem reluBias_apply (a : (⟨Cert.ReferenceIdeal.S50000x64, .f32⟩ : BufTy).Contents (Elt Ideal))
    (b : (⟨Cert.ReferenceIdeal.S1x64, .f32⟩ : BufTy).Contents (Elt Ideal)) (r : Fin 50000) (k : Fin 64) :
    Cert.Layers.reluBias (F := Ideal) a b (ix2 r k) = max (a (ix2 r k) + b (ix2 (0 : Fin 1) k)) 0 := by
  unfold Cert.Layers.reluBias
  rw [maximumf_apply, addf_apply,
    broadcastInDim_apply _ _ b (ix2 r k) (ix2 (0 : Fin 1) k) (fun a => match a with
      | ⟨0, _⟩ => by show 0 = if (1 : Nat) = 1 then 0 else r.val; rw [if_pos rfl]
      | ⟨1, _⟩ => by show k.val = if (64 : Nat) = 1 then 0 else k.val; rw [if_neg (by decide)]),
    broadcastInDim_apply _ _ _ (ix2 r k) ix0 (fun a => a.elim0),
    constant_apply, Ideal.ofBits_zero_f32]

/-- The same for a block of rows, as a grid point computes it: the two casts to the same shape are the identity,
    the bias row is repeated down the rows, and the scalar zero is repeated everywhere. -/
theorem reluBlock_apply (x0 : Vec Ideal S10000x64 .f32) (x1 : Vec Ideal S1x64 .f32)
    (h0 : S10000x64.ShapeCasts S10000x64) (h1 : S1x64.ShapeCasts S1x64) (hb : S1x64.Broadcasts S10000x64)
    (p : Fin 10000) (k : Fin 64) :
    (maximumf (addf (shapeCast S10000x64 x0 h0) (broadcastTo S10000x64 (shapeCast S1x64 x1 h1) hb))
      (broadcast S10000x64 (Scalar.ofBits (F := Ideal) .f32 0x00000000#32)) : FVec Ideal S10000x64 .f32) (ix2 p k)
      = max (x0 (ix2 p k) + x1 (ix2 (0 : Fin 1) k)) 0 := by
  rw [shapeCast_self, shapeCast_self, maximumf_apply, addf_apply, broadcast_apply, broadcastTo_1b_ab_apply,
    Ideal.ofBits_def, Ideal.ofBits_zero_f32]

/-! ## The block's product at an index -/

theorem lhs_0 (j : S10000x64.Idx) (q : dot_S10000x64_S64x64_S10000x64_1_0_0_1_n_n.contr.Idx) :
    (dot_S10000x64_S64x64_S10000x64_1_0_0_1_n_n.lhsIdx j q 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_1 (j : S10000x64.Idx) (q : dot_S10000x64_S64x64_S10000x64_1_0_0_1_n_n.contr.Idx) :
    (dot_S10000x64_S64x64_S10000x64_1_0_0_1_n_n.lhsIdx j q 1).val = (q ⟨0, by decide⟩).val :=
  dot_S10000x64_S64x64_S10000x64_1_0_0_1_n_n.lhsIdx_val_of_single rfl j q
theorem rhs_0 (j : S10000x64.Idx) (q : dot_S10000x64_S64x64_S10000x64_1_0_0_1_n_n.contr.Idx) :
    (dot_S10000x64_S64x64_S10000x64_1_0_0_1_n_n.rhsIdx j q 0).val = (q ⟨0, by decide⟩).val :=
  dot_S10000x64_S64x64_S10000x64_1_0_0_1_n_n.rhsIdx_val_of_single rfl j q
theorem rhs_1 (j : S10000x64.Idx) (q : dot_S10000x64_S64x64_S10000x64_1_0_0_1_n_n.contr.Idx) :
    (dot_S10000x64_S64x64_S10000x64_1_0_0_1_n_n.rhsIdx j q 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- What a grid point stores, at the entry (p, q): the roundings are the identity and the product into the zero
    accumulator is the sum over the 64 contracted coordinates k of the clamped, bias-added entry (p, k) times the
    weight entry (k, q). -/
theorem pay_ix (v0 : Vec Ideal S10000x64 .f32) (v2 : Vec Ideal S1x64 .f32) (v9 : Vec Ideal S64x64 .f32)
    (p : Fin 10000) (q : Fin 64) :
    Gen.k1_pay1 (F := Ideal) v0 v2 v9 (ix2 p q)
      = ∑ k : Fin 64, max (v0 (ix2 p k) + v2 (ix2 (0 : Fin 1) k)) 0 * v9 (ix2 k q) := by
  unfold Gen.k1_pay1
  show FloatOps.matmul (F := Ideal) (φ₁ := .bf16) (φ₂ := .bf16) dot_S10000x64_S64x64_S10000x64_1_0_0_1_n_n none
      (maximumf (addf (shapeCast S10000x64 v0 _) (broadcastTo S10000x64 (shapeCast S1x64 v2 _) _))
        (broadcast S10000x64 (Scalar.ofBits (F := Ideal) .f32 0x00000000#32)) : FVec Ideal S10000x64 .f32)
      v9 (constant (F := Ideal) S10000x64 .f32 0x00000000#32) (ix2 p q) = _
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_0 _ _
    | ⟨1, _⟩ => exact (lhs_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_0 _ _).trans hk
    | ⟨1, _⟩ => exact rhs_1 _ _)
  rw [el, er, reluBlock_apply]

/-- The same at any entry of the block, by its two coordinates. -/
theorem pay_apply (v0 : Vec Ideal S10000x64 .f32) (v2 : Vec Ideal S1x64 .f32) (v9 : Vec Ideal S64x64 .f32)
    (j : S10000x64.Idx) :
    Gen.k1_pay1 (F := Ideal) v0 v2 v9 j
      = ∑ k : Fin 64, max (v0 (ix2 (n0 := 10000) (n1 := 64) (j 0) k) + v2 (ix2 (0 : Fin 1) k)) 0 * v9 (ix2 (n0 := 64) (n1 := 64) k (j 1)) := by
  obtain ⟨p, q, rfl⟩ : ∃ (p : Fin 10000) (q : Fin 64), j = ix2 p q := ⟨j 0, j 1, eq_ix2 j⟩
  exact pay_ix v0 v2 v9 p q

/-- The whole-array second layer at an entry: the same sum, over the whole arrays. -/
theorem dense2_apply (a : (⟨Cert.ReferenceIdeal.S50000x64, .f32⟩ : BufTy).Contents (Elt Ideal))
    (b : (⟨Cert.ReferenceIdeal.S1x64, .f32⟩ : BufTy).Contents (Elt Ideal))
    (W : (⟨Cert.ReferenceIdeal.S64x64, .f32⟩ : BufTy).Contents (Elt Ideal)) (i : Cert.ReferenceIdeal.S50000x64.Idx) :
    Cert.Layers.dense2 (F := Ideal) a b W i
      = ∑ k : Fin 64, max (a (Cert.ReferenceIdeal.Read.lidx_main_v4 i k) + b (ix2 (0 : Fin 1) k)) 0 * W (Cert.ReferenceIdeal.Read.ridx_main_v4 i k) := by
  unfold Cert.Layers.dense2
  refine (Cert.ReferenceIdeal.Read.val_main_v4_apply (Cert.Layers.reluBias (F := Ideal) a b) W i).trans ?_
  refine Finset.sum_congr rfl fun k _ => ?_
  have hl : Cert.ReferenceIdeal.Read.lidx_main_v4 i k = ix2 (⟨(i 0).val, (i 0).isLt⟩ : Fin 50000) k :=
    funext fun a => match a with
      | ⟨0, _⟩ => rfl
      | ⟨1, _⟩ => rfl
  rw [hl, reluBias_apply]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the five points: the row blocks of the input and of the output move together,
    every other block index is zero, and the output's row-block index is at most four. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 4 :=
  (by decide +kernel : ∀ t : Fin grid1.N, _)

/-- Every row block is some point's. -/
theorem idx_onto : ∀ q0 : Fin 5, ∃ t : Fin cfg1.N, win1_3.index t = ![q0.val, 0] :=
  (by decide +kernel : ∀ q0 : Fin 5, ∃ t : Fin grid1.N, win1_3.index t = ![q0.val, 0])

/-- What point t writes back is block t of the second layer of the three arrays. -/
theorem flushed_eq (c : Dev nD) (t : Fin cfg1.N) :
    (Gen.dat1 (F := Ideal) V c).flushed 3 t
      = ((cfg1.win 3).blk t).view.read (Elt Ideal) (Cert.Layers.dense2 (F := Ideal) (V c main_v46) (V c main_v47) (V c main_arg5)) := by
  show (cfg1.win 3).cut (grid1.coords t) ((Gen.dat1 V c).after 3 t) = _
  rw [Gen.after1_3]
  unfold Gen.out1_3
  rw [View.canon_unit_zero hz]
  simp only [View.ld_unit_zero (S := S10000x64) hz, View.ld_unit_zero (S := S1x64) hz, View.ld_unit_zero (S := S64x64) hz]
  obtain ⟨e0, e1, e2, e3, e4, e5, e6, e7⟩ := idx_facts t
  funext j
  show Gen.k1_pay1 (F := Ideal) (Gen.iblk1 V c 0 t) (Gen.iblk1 V c 1 t) (Gen.iblk1 V c 2 t) j
    = Cert.Layers.dense2 (F := Ideal) (V c main_v46) (V c main_v47) (V c main_arg5) (((cfg1.win 3).blk t).view.emb j)
  refine (pay_apply (Gen.iblk1 V c 0 t) (Gen.iblk1 V c 1 t) (Gen.iblk1 V c 2 t) j).trans ?_
  refine ((dense2_apply (V c main_v46) (V c main_v47) (V c main_arg5) (((cfg1.win 3).blk t).view.emb j)).trans ?_).symm
  refine Finset.sum_congr rfl fun k _ => ?_
  -- the row entry: row (block index × 10000 + r) of the array, column k
  have h0 : ((cfg1.win 0).blk t).view.emb (ix2 (n0 := 10000) (n1 := 64) (j 0) k)
      = Cert.ReferenceIdeal.Read.lidx_main_v4 (((cfg1.win 3).blk t).view.emb j) k := by
    funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 64 + 1 * k.val = k.val; omega
  -- the bias entry: the bias row is one block, read where it is
  have h1 : ((cfg1.win 1).blk t).view.emb (ix2 (0 : Fin 1) k) = (ix2 (0 : Fin 1) k : Cert.ReferenceIdeal.S1x64.Idx) := by
    funext a; apply Fin.ext
    match a with
    | ⟨0, _⟩ => show win1_1.index t (0 : Fin 2) * 1 + 1 * 0 = 0; omega
    | ⟨1, _⟩ => show win1_1.index t (1 : Fin 2) * 64 + 1 * k.val = k.val; omega
  -- the column entry: the weight matrix is one block, read where it is
  have h2 : ((cfg1.win 2).blk t).view.emb (ix2 (n0 := 64) (n1 := 64) k (j 1))
      = Cert.ReferenceIdeal.Read.ridx_main_v4 (((cfg1.win 3).blk t).view.emb j) k := by
    funext a; apply Fin.ext
    match a with
    | ⟨0, _⟩ => show win1_2.index t (0 : Fin 2) * 64 + 1 * k.val = k.val; omega
    | ⟨1, _⟩ => show win1_2.index t (1 : Fin 2) * 64 + 1 * (j 1).val = win1_3.index t (1 : Fin 2) * 64 + 1 * (j 1).val; omega
  have r0 : Gen.iblk1 V c 0 t (ix2 (n0 := 10000) (n1 := 64) (j 0) k)
      = V c main_v46 (Cert.ReferenceIdeal.Read.lidx_main_v4 (((cfg1.win 3).blk t).view.emb j) k) :=
    congrArg (V c main_v46) h0
  have r1 : Gen.iblk1 V c 1 t (ix2 (0 : Fin 1) k) = V c main_v47 (ix2 (0 : Fin 1) k) :=
    congrArg (V c main_v47) h1
  have r2 : Gen.iblk1 V c 2 t (ix2 (n0 := 64) (n1 := 64) k (j 1))
      = V c main_arg5 (Cert.ReferenceIdeal.Read.ridx_main_v4 (((cfg1.win 3).blk t).view.emb j) k) :=
    congrArg (V c main_arg5) h2
  rw [r0, r1, r2]

/-- An index of the array is in point t's block iff each coordinate is in the block's range on its axis. -/
theorem mem_blk (t : Fin cfg1.N) (i : S50000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v48).slice (win1_3.rect t)).set ↔ _
  rw [View.set_slice_whole, Rect.mem_set_unit]
  exact Iff.rfl

/-- The five row blocks tile the array: row r is in the block of the point whose row-block index is r / 10000. -/
theorem cover (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, Gen.flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- After the second region its output array is the second dense layer of the three arrays it finds. -/
theorem array (c : Dev nD) :
    (Gen.dat1 (F := Ideal) V c).arrAt 3 cfg1.N
      = Cert.Layers.dense2 (F := Ideal) (V c main_v46) (V c main_v47) (V c main_arg5) :=
  (Gen.dat1 (F := Ideal) V c).arrAt_eq_of_cover 3
    (Cert.Layers.dense2 (F := Ideal) (V c main_v46) (V c main_v47) (V c main_arg5))
    (fun t _ => flushed_eq V c t) cover

end Cert.KernelIdeal.Region1

end
-- ==== Proof.Region2.lean ====
/-
  The third region's output array as a whole-array function on the extended reals.

  The region runs over five points; point `t` reads rows `10000 t … 10000 t + 9999` of a 50000×64 array `a` and the
  whole of a 1×64 bias row `b`, a 64×1 weight column `w` and a 1×1 scalar bias `c`, and writes the same rows of a
  50000×1 array. On the extended reals a change of float format is the identity and a matrix product into a zero
  accumulator is the plain sum over the contracted axis, so entry `(r, 0)` of what point `r / 10000` writes is
  `∑ k, max (a (r, k) + b (0, k)) 0 * w (k, 0) + c (0, 0)`: it depends on row `r` of `a` only. The reference's last dense
  layer is the same sum of the same products at every row, so the array the region leaves is that layer of the arrays
  it finds. No finiteness is needed: both sides are one term.

  Order of the file: the clamped bias-added row at an index, on both sides; the matrix product at an index, on both
  sides; the kernel's stored value and the dense layer at an index; each operand's block at a point as entries of its
  array; what a point writes back as a block of the layer; the blocks cover the array; the array.
-/
import proofs.«130539_j47115791237145_2_alg».proof.Proof.Gen.KernelIdeal.Frame
import proofs.«130539_j47115791237145_2_alg».proof.Proof.Layers
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region2

open Cert.KernelIdeal Idealize.ShloMosaic Idealize.ShloMosaic.TcCoe Idealize.SL.Sem
open Idealize.ShloMosaic.Pipeline (Dat Cfg Window)
open Idealize.ShloMosaic.ValueIdx

theorem hz : (![0, 0] : Fin 2 → Nat) = fun _ => 0 := funext fun a => by fin_cases a <;> rfl

/-- The reference's bias-added and clamped row at an index. -/
theorem reluBias_apply (a : (⟨Cert.ReferenceIdeal.S50000x64, .f32⟩ : BufTy).Contents (Elt Ideal))
    (b : (⟨Cert.ReferenceIdeal.S1x64, .f32⟩ : BufTy).Contents (Elt Ideal)) (r : Fin 50000) (k : Fin 64) :
    Cert.Layers.reluBias (F := Ideal) a b (ix2 r k) = max (a (ix2 r k) + b (ix2 (0 : Fin 1) k)) 0 := by
  unfold Cert.Layers.reluBias
  rw [maximumf_apply, addf_apply,
    broadcastInDim_apply _ _ b (ix2 r k) (ix2 (0 : Fin 1) k) (fun a => match a with
      | ⟨0, _⟩ => by show 0 = if (1 : Nat) = 1 then 0 else r.val; rw [if_pos rfl]
      | ⟨1, _⟩ => by show k.val = if (64 : Nat) = 1 then 0 else k.val; rw [if_neg (by decide)]),
    broadcastInDim_apply _ _ _ (ix2 r k) ix0 (fun a => a.elim0),
    constant_apply, Ideal.ofBits_zero_f32]

/-- The kernel's bias-added and clamped block at an index. -/
theorem reluBlock_apply (x0 : Vec Ideal S10000x64 .f32) (x1 : Vec Ideal S1x64 .f32)
    (h0 : S10000x64.ShapeCasts S10000x64) (h1 : S1x64.ShapeCasts S1x64) (hb : S1x64.Broadcasts S10000x64)
    (p : Fin 10000) (k : Fin 64) :
    (maximumf (addf (shapeCast S10000x64 x0 h0) (broadcastTo S10000x64 (shapeCast S1x64 x1 h1) hb))
      (broadcast S10000x64 (Scalar.ofBits (F := Ideal) .f32 0x00000000#32)) : FVec Ideal S10000x64 .f32) (ix2 p k)
      = max (x0 (ix2 p k) + x1 (ix2 (0 : Fin 1) k)) 0 := by
  rw [shapeCast_self, shapeCast_self, maximumf_apply, addf_apply, broadcast_apply, broadcastTo_1b_ab_apply,
    Ideal.ofBits_def, Ideal.ofBits_zero_f32]

/-- On its row axis the product's left operand is read at the output's row. -/
theorem lhsRow (i : S10000x1.Idx) (q : dot_S10000x64_S64x1_S10000x1_1_0_0_1_n_n.contr.Idx) :
    (dot_S10000x64_S64x1_S10000x1_1_0_0_1_n_n.lhsIdx i q 0).val = (i 0).val := by
  unfold DotDims.lhsIdx
  rw [dif_neg (show ¬(0 : Fin S10000x64.rank) ∈ dot_S10000x64_S64x1_S10000x1_1_0_0_1_n_n.lhsBatch by decide), dif_pos (show (0 : Fin S10000x64.rank) ∈ dot_S10000x64_S64x1_S10000x1_1_0_0_1_n_n.lhsNonContracting by decide)]
  rfl

/-- On its column axis the product's right operand is read at the output's column. -/
theorem rhsCol (i : S10000x1.Idx) (q : dot_S10000x64_S64x1_S10000x1_1_0_0_1_n_n.contr.Idx) :
    (dot_S10000x64_S64x1_S10000x1_1_0_0_1_n_n.rhsIdx i q 1).val = (i 1).val := by
  unfold DotDims.rhsIdx
  rw [dif_neg (show ¬(1 : Fin S64x1.rank) ∈ dot_S10000x64_S64x1_S10000x1_1_0_0_1_n_n.rhsBatch by decide), dif_pos (show (1 : Fin S64x1.rank) ∈ dot_S10000x64_S64x1_S10000x1_1_0_0_1_n_n.rhsNonContracting by decide)]
  rfl

/-- The kernel's matrix product into a zero accumulator at an index: the sum over the 64 contracted positions. -/
theorem matmulBlock_apply (A : FVec Ideal S10000x64 .bf16) (B : FVec Ideal S64x1 .bf16) (p : Fin 10000) (q : Fin 1) :
    (matmul dot_S10000x64_S64x1_S10000x1_1_0_0_1_n_n none A B (constant S10000x1 .f32 0x00000000#32) : FVec Ideal S10000x1 .f32) (ix2 p q)
      = ∑ k : Fin 64, A (ix2 p k) * B (ix2 k q) := by
  simp only [matmul]
  rw [Ideal.matmul_constant_zero_apply, ← Equiv.sum_comp (ValueIdx.contrEquiv1 dot_S10000x64_S64x1_S10000x1_1_0_0_1_n_n 64 rfl rfl).symm]
  refine Finset.sum_congr rfl fun k _ => ?_
  have hk := ValueIdx.contrEquiv1_symm_val dot_S10000x64_S64x1_S10000x1_1_0_0_1_n_n 64 rfl rfl k
  have el : dot_S10000x64_S64x1_S10000x1_1_0_0_1_n_n.lhsIdx (ix2 p q) ((ValueIdx.contrEquiv1 dot_S10000x64_S64x1_S10000x1_1_0_0_1_n_n 64 rfl rfl).symm k) = ix2 p k := funext fun a => Fin.ext (by
    match a with
    | ⟨0, _⟩ => exact lhsRow _ _
    | ⟨1, _⟩ => exact (dot_S10000x64_S64x1_S10000x1_1_0_0_1_n_n.lhsIdx_val_of_single rfl _ _).trans hk)
  have er : dot_S10000x64_S64x1_S10000x1_1_0_0_1_n_n.rhsIdx (ix2 p q) ((ValueIdx.contrEquiv1 dot_S10000x64_S64x1_S10000x1_1_0_0_1_n_n 64 rfl rfl).symm k) = ix2 k q := funext fun a => Fin.ext (by
    match a with
    | ⟨0, _⟩ => exact (dot_S10000x64_S64x1_S10000x1_1_0_0_1_n_n.rhsIdx_val_of_single rfl _ _).trans hk
    | ⟨1, _⟩ => exact rhsCol _ _)
  rw [el, er]

/-- The reference's matrix product at an index: the same sum. -/
theorem dotHost_apply (A : FVec Ideal Cert.ReferenceIdeal.S50000x64 .f32) (B : FVec Ideal Cert.ReferenceIdeal.S64x1 .f32) (r : Fin 50000) (q : Fin 1) :
    (Host.dotGeneral Cert.ReferenceIdeal.dot_S50000x64_S64x1_S50000x1_1_0_0_1_n_n none A B : FVec Ideal Cert.ReferenceIdeal.S50000x1 .f32) (ix2 r q)
      = ∑ k : Fin 64, A (ix2 r k) * B (ix2 k q) := by
  simp only [Host.dotGeneral]
  rw [Ideal.dotGeneral_apply, ← Equiv.sum_comp (ValueIdx.contrEquiv1 Cert.ReferenceIdeal.dot_S50000x64_S64x1_S50000x1_1_0_0_1_n_n 64 rfl rfl).symm]
  refine Finset.sum_congr rfl fun k _ => ?_
  have hk := ValueIdx.contrEquiv1_symm_val Cert.ReferenceIdeal.dot_S50000x64_S64x1_S50000x1_1_0_0_1_n_n 64 rfl rfl k
  have el : Cert.ReferenceIdeal.dot_S50000x64_S64x1_S50000x1_1_0_0_1_n_n.lhsIdx (ix2 r q) ((ValueIdx.contrEquiv1 Cert.ReferenceIdeal.dot_S50000x64_S64x1_S50000x1_1_0_0_1_n_n 64 rfl rfl).symm k) = ix2 r k := funext fun a => Fin.ext (by
    match a with
    | ⟨0, _⟩ => exact Cert.ReferenceIdeal.Read.lhs_main_v96_0 _ _
    | ⟨1, _⟩ => exact (Cert.ReferenceIdeal.Read.lhs_main_v96_1 _ _).trans hk)
  have er : Cert.ReferenceIdeal.dot_S50000x64_S64x1_S50000x1_1_0_0_1_n_n.rhsIdx (ix2 r q) ((ValueIdx.contrEquiv1 Cert.ReferenceIdeal.dot_S50000x64_S64x1_S50000x1_1_0_0_1_n_n 64 rfl rfl).symm k) = ix2 k q := funext fun a => Fin.ext (by
    match a with
    | ⟨0, _⟩ => exact (Cert.ReferenceIdeal.Read.rhs_main_v96_0 _ _).trans hk
    | ⟨1, _⟩ => exact Cert.ReferenceIdeal.Read.rhs_main_v96_1 _ _)
  rw [el, er]

/-- The kernel's stored value at an index of its block: the clamped bias-added row times the weight column, plus
    the scalar bias. -/
theorem pay_apply (x0 : Vec Ideal S10000x64 .f32) (x1 : Vec Ideal S1x64 .f32) (x2 : Vec Ideal S64x1 .f32)
    (x3 : Vec Ideal S1x1 .f32) (p : Fin 10000) (q : Fin 1) :
    Gen.k2_pay1 x0 x1 x2 x3 (ix2 p q)
      = (∑ k : Fin 64, max (x0 (ix2 p k) + x1 (ix2 (0 : Fin 1) k)) 0 * x2 (ix2 k q)) + x3 (ix2 (0 : Fin 1) q) := by
  unfold Gen.k2_pay1
  rw [addf_apply, matmulBlock_apply, broadcastTo_1b_ab_apply, shapeCast_self x3]
  refine congrArg (· + x3 (ix2 (0 : Fin 1) q)) (Finset.sum_congr rfl fun k _ => ?_)
  rw [truncf_apply, truncf_apply, reluBlock_apply]

/-- The last dense layer at an index: the same sum and bias over the whole arrays. -/
theorem dense3_apply (a : (⟨Cert.ReferenceIdeal.S50000x64, .f32⟩ : BufTy).Contents (Elt Ideal))
    (b : (⟨Cert.ReferenceIdeal.S1x64, .f32⟩ : BufTy).Contents (Elt Ideal))
    (w : (⟨Cert.ReferenceIdeal.S64x1, .f32⟩ : BufTy).Contents (Elt Ideal))
    (c : (⟨Cert.ReferenceIdeal.S1x1, .f32⟩ : BufTy).Contents (Elt Ideal)) (r : Fin 50000) (q : Fin 1) :
    Cert.Layers.dense3 (F := Ideal) a b w c (ix2 r q)
      = (∑ k : Fin 64, max (a (ix2 r k) + b (ix2 (0 : Fin 1) k)) 0 * w (ix2 k q)) + c (ix2 (0 : Fin 1) q) := by
  unfold Cert.Layers.dense3
  rw [addf_apply, dotHost_apply,
    broadcastInDim_apply _ _ c (ix2 r q) (ix2 (0 : Fin 1) q) (fun a => match a with
      | ⟨0, _⟩ => by show 0 = if (1 : Nat) = 1 then 0 else r.val; rw [if_pos rfl]
      | ⟨1, _⟩ => by show q.val = if (1 : Nat) = 1 then 0 else q.val; rw [if_pos rfl]; omega)]
  refine congrArg (· + c (ix2 (0 : Fin 1) q)) (Finset.sum_congr rfl fun k _ => ?_)
  rw [reluBias_apply]

/-! ## From the blocks to the array -/

/-- The index maps over the five points: the row-block arrays move with the point, every other operand stays at its
    one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

/-- The first operand's block at point `t` is rows `10000 t … 10000 t + 9999` of its array. -/
theorem iblk0_apply (c : Dev nD) (t : Fin cfg2.N) (x : S10000x64.Idx) (i : S50000x64.Idx)
    (h0 : (i 0).val = 10000 * t.val + (x 0).val) (h1 : (i 1).val = (x 1).val) :
    (Gen.iblk2 V c 0 t : Vec Ideal S10000x64 .f32) x = (V c main_v62 : S50000x64.Idx → Elt Ideal .f32) i := by
  obtain ⟨e0, e1, -⟩ := idx_facts t
  unfold Gen.iblk2
  rw [View.read_apply]
  show V c main_v62 _ = V c main_v62 _
  refine congrArg (V c main_v62) (funext fun a => Fin.ext ?_)
  match a with
  | ⟨0, _⟩ => show win2_0.index t (0 : Fin 2) * 10000 + 1 * (x 0).val = (i 0).val; rw [e0, h0]; omega
  | ⟨1, _⟩ => show win2_0.index t (1 : Fin 2) * 64 + 1 * (x 1).val = (i 1).val; rw [e1, h1]; omega

/-- The bias row's one block is its whole array. -/
theorem iblk1_apply (c : Dev nD) (t : Fin cfg2.N) (x : S1x64.Idx) :
    (Gen.iblk2 V c 1 t : Vec Ideal S1x64 .f32) x = (V c main_v63 : S1x64.Idx → Elt Ideal .f32) x := by
  obtain ⟨-, -, e0, e1, -⟩ := idx_facts t
  unfold Gen.iblk2
  rw [View.read_apply]
  show V c main_v63 _ = V c main_v63 _
  refine congrArg (V c main_v63) (funext fun a => Fin.ext ?_)
  match a with
  | ⟨0, _⟩ => show win2_1.index t (0 : Fin 2) * 1 + 1 * (x 0).val = (x 0).val; rw [e0]; omega
  | ⟨1, _⟩ => show win2_1.index t (1 : Fin 2) * 64 + 1 * (x 1).val = (x 1).val; rw [e1]; omega

/-- The weight column's one block is its whole array. -/
theorem iblk2_apply (c : Dev nD) (t : Fin cfg2.N) (x : S64x1.Idx) :
    (Gen.iblk2 V c 2 t : Vec Ideal S64x1 .f32) x = (V c main_arg7 : S64x1.Idx → Elt Ideal .f32) x := by
  obtain ⟨-, -, -, -, e0, e1, -⟩ := idx_facts t
  unfold Gen.iblk2
  rw [View.read_apply]
  show V c main_arg7 _ = V c main_arg7 _
  refine congrArg (V c main_arg7) (funext fun a => Fin.ext ?_)
  match a with
  | ⟨0, _⟩ => show win2_2.index t (0 : Fin 2) * 64 + 1 * (x 0).val = (x 0).val; rw [e0]; omega
  | ⟨1, _⟩ => show win2_2.index t (1 : Fin 2) * 1 + 1 * (x 1).val = (x 1).val; rw [e1]; omega

/-- The scalar bias's one block is its whole array. -/
theorem iblk3_apply (c : Dev nD) (t : Fin cfg2.N) (x : S1x1.Idx) :
    (Gen.iblk2 V c 3 t : Vec Ideal S1x1 .f32) x = (V c main_v64 : S1x1.Idx → Elt Ideal .f32) x := by
  obtain ⟨-, -, -, -, -, -, e0, e1, -⟩ := idx_facts t
  unfold Gen.iblk2
  rw [View.read_apply]
  show V c main_v64 _ = V c main_v64 _
  refine congrArg (V c main_v64) (funext fun a => Fin.ext ?_)
  match a with
  | ⟨0, _⟩ => show win2_3.index t (0 : Fin 2) * 1 + 1 * (x 0).val = (x 0).val; rw [e0]; omega
  | ⟨1, _⟩ => show win2_3.index t (1 : Fin 2) * 1 + 1 * (x 1).val = (x 1).val; rw [e1]; omega

/-- What point `t` writes back is block `t` of the last dense layer of the arrays the region finds. -/
theorem flushed_eq (c : Dev nD) (t : Fin cfg2.N) :
    (Gen.dat2 (F := Ideal) V c).flushed 4 t = ((cfg2.win 4).blk t).view.read (Elt Ideal)
      (Cert.Layers.dense3 (F := Ideal) (V c main_v62) (V c main_v63) (V c main_arg7) (V c main_v64)) := by
  show (cfg2.win 4).cut (grid2.coords t) ((Gen.dat2 (F := Ideal) V c).after 4 t) = _
  rw [Gen.after2_4]
  unfold Gen.out2_4
  rw [View.canon_unit_zero hz]
  simp only [View.ld_unit_zero (S := S10000x64) hz, View.ld_unit_zero (S := S1x64) hz, View.ld_unit_zero (S := S64x1) hz,
    View.ld_unit_zero (S := S1x1) hz]
  have hN : grid2.N = 5 := Gen.N_2
  have ht : t.val < 5 := hN ▸ t.isLt
  obtain ⟨-, -, -, -, -, -, -, -, e0, e1⟩ := idx_facts t
  funext j
  obtain ⟨p, q, rfl⟩ : ∃ (p : Fin 10000) (q : Fin 1), j = ix2 p q := ⟨j 0, j 1, eq_ix2 j⟩
  have hp : p.val < 10000 := p.isLt
  have hq : q.val < 1 := q.isLt
  show Gen.k2_pay1 (Gen.iblk2 V c 0 t) (Gen.iblk2 V c 1 t) (Gen.iblk2 V c 2 t) (Gen.iblk2 V c 3 t) (ix2 p q)
    = Cert.Layers.dense3 (F := Ideal) (V c main_v62) (V c main_v63) (V c main_arg7) (V c main_v64)
        (((cfg2.win 4).blk t).view.emb (ix2 p q))
  have hemb : ((cfg2.win 4).blk t).view.emb (ix2 p q) = ix2 (⟨10000 * t.val + p.val, by omega⟩ : Fin 50000) q := by
    funext a; apply Fin.ext
    match a with
    | ⟨0, _⟩ => show win2_4.index t (0 : Fin 2) * 10000 + 1 * p.val = 10000 * t.val + p.val; rw [e0]; omega
    | ⟨1, _⟩ => show win2_4.index t (1 : Fin 2) * 1 + 1 * q.val = q.val; rw [e1]; omega
  rw [hemb]
  refine (pay_apply (Gen.iblk2 V c 0 t) (Gen.iblk2 V c 1 t) (Gen.iblk2 V c 2 t) (Gen.iblk2 V c 3 t) p q).trans ?_
  refine Eq.trans ?_ (dense3_apply (V c main_v62) (V c main_v63) (V c main_arg7) (V c main_v64) _ q).symm
  refine congrArg₂ (· + ·) (Finset.sum_congr rfl fun k _ => ?_) (iblk3_apply V c t _)
  rw [iblk0_apply V c t (ix2 p k) (ix2 (⟨10000 * t.val + p.val, by omega⟩ : Fin 50000) k) rfl rfl,
    iblk1_apply V c t, iblk2_apply V c t]

/-- An index of the output array is in point `t`'s block iff each coordinate is in the block's range on its axis. -/
theorem mem_blk (t : Fin cfg2.N) (i : S50000x1.Idx) :
    i ∈ ((cfg2.win 4).blk t).view.set ↔ ∀ a : Fin 2, win2_4.index t a * S10000x1.size a ≤ (i a).val
      ∧ (i a).val < win2_4.index t a * S10000x1.size a + S10000x1.size a := by
  show i ∈ ((View.whole main_v65).slice (win2_4.rect t)).set ↔ _
  rw [View.set_slice_whole, Rect.mem_set_unit]
  exact Iff.rfl

/-- Every row of the output array is in the block of the point that handles it: row `r` in that of point `r / 10000`. -/
theorem cover (i : S50000x1.Idx) :
    ∃ t : Fin cfg2.N, (cfg2.win 4).flush t = true ∧ i ∈ ((cfg2.win 4).blk t).view.set := by
  have hi0 : (i 0).val < 50000 := (i 0).isLt
  have hi1 : (i 1).val < 1 := (i 1).isLt
  have hN : grid2.N = 5 := Gen.N_2
  obtain ⟨t, ht⟩ : ∃ t : Fin cfg2.N, t.val = (i 0).val / 10000 :=
    ⟨⟨(i 0).val / 10000, by show (i 0).val / 10000 < grid2.N; rw [hN]; omega⟩, rfl⟩
  obtain ⟨-, -, -, -, -, -, -, -, e0, e1⟩ := idx_facts t
  refine ⟨t, Gen.flush2_4 t, ?_⟩
  rw [mem_blk]
  intro a
  match a with
  | ⟨0, _⟩ =>
    show win2_4.index t (0 : Fin 2) * 10000 ≤ (i 0).val ∧ (i 0).val < win2_4.index t (0 : Fin 2) * 10000 + 10000
    rw [e0, ht]; omega
  | ⟨1, _⟩ =>
    show win2_4.index t (1 : Fin 2) * 1 ≤ (i 1).val ∧ (i 1).val < win2_4.index t (1 : Fin 2) * 1 + 1
    rw [e1]; omega

/-- After the third region its output array is the last dense layer of the arrays it finds. -/
theorem array (c : Dev nD) :
    (Gen.dat2 (F := Ideal) V c).arrAt 4 cfg2.N
      = Cert.Layers.dense3 (F := Ideal) (V c main_v62) (V c main_v63) (V c main_arg7) (V c main_v64) :=
  (Gen.dat2 (F := Ideal) V c).arrAt_eq_of_cover 4 _ (fun t _ => flushed_eq V c t) cover

end Cert.KernelIdeal.Region2
end
-- ==== Proof.KValue.lean ====
/-
  The idealized kernel program's result as one function of its arguments.

  The program computes, on the host, the edge list extended by the self-loops (`src2`, `dst2`), the extended edge
  weights and the symmetric normalisation of every edge (`norm`); then three times a dense layer on the device, and
  between the layers, on the host again, the aggregation: gather the rows of the layer's output at the sources,
  scale each by its edge's normalisation, scatter-add them at the targets.  Followed stretch by stretch, every value
  the program holds at a region's entry is the very stage the reference program computes there: the host operations
  are the same operations of the same operands, a change of float format is the identity on the extended reals, a
  reshape of a bias vector to a one-row matrix is the reference's broadcast of it, and each region's output array is
  the reference's dense layer of the region's operands (the three region modules).
-/
import proofs.«130539_j47115791237145_2_alg».proof.Proof.Gen.KernelIdeal.Frame
import proofs.«130539_j47115791237145_2_alg».proof.Proof.Gen.ReferenceIdeal.Read
import proofs.«130539_j47115791237145_2_alg».proof.Proof.Layers
import proofs.«130539_j47115791237145_2_alg».proof.Proof.Region0
import proofs.«130539_j47115791237145_2_alg».proof.Proof.Region1
import proofs.«130539_j47115791237145_2_alg».proof.Proof.Region2
import Idealize.ShloMosaic.Lib.StableHlo.Run
import Idealize.ShloMosaic.Lib.Pipeline.Value

noncomputable section

namespace Cert.KernelIdeal.HostValues

open Cert.KernelIdeal Cert.KernelIdeal.Gen Idealize.ShloMosaic Idealize.ShloMosaic.TcCoe Idealize.SL.Sem Idealize.ShloMosaic.StableHlo
open Idealize.ShloMosaic.Pipeline (Dat Cfg Window)
open Cert.ReferenceIdeal.Read (val_main_v4 val_main_v6 val_main_v7 val_main_v32 val_main_v45 val_main_v46 val_main_v50 val_main_v91
  val_main_v92 val_main_v97 val_main_v99 val_main_v46_apply val_main_v97_apply idx_main_v46 idx_main_v97)

/-! ## At the first region's entry: the host's first stretches, at any float instance -/

section Entry

variable {F : FTy → Type} [FloatOps F]
variable (m : (ℓ : Loc nD τ sig) → Buf (Elt F) ℓ) (ρ : Dev nD → PrngReg)

set_option maxRecDepth 8192 in
/-- The sources with the self-loops appended. -/
theorem W3_v5 (c : Dev nD) : W3 m ρ c (Proc.devRef .tc main_v5) = val_main_v6 (F := F) (m ((c : Thread nD τ).loc main_arg1)) := by
  show StableHlo.after hostOps0_2 (StableHlo.after hostOps0_1 (StableHlo.after hostOps0 (W0 m ρ c))) _ = _
  after_results_simp <;> rfl

set_option maxRecDepth 8192 in
/-- The targets with the self-loops appended. -/
theorem W3_v6 (c : Dev nD) : W3 m ρ c (Proc.devRef .tc main_v6) = val_main_v7 (F := F) (m ((c : Thread nD τ).loc main_arg1)) := by
  show StableHlo.after hostOps0_2 (StableHlo.after hostOps0_1 (StableHlo.after hostOps0 (W0 m ρ c))) _ = _
  after_results_simp <;> rfl

set_option maxRecDepth 8192 in
/-- Every edge's normalisation: the product of the inverse square roots of the weighted degrees at its two ends and
    its weight. -/
theorem W3_v31 (c : Dev nD) : W3 m ρ c (Proc.devRef .tc main_v31) = val_main_v32 (F := F) (m ((c : Thread nD τ).loc main_arg1)) (m ((c : Thread nD τ).loc main_arg2)) := by
  show StableHlo.after hostOps0_2 (StableHlo.after hostOps0_1 (StableHlo.after hostOps0 (W0 m ρ c))) _ = _
  after_results_simp <;> rfl

set_option maxRecDepth 8192 in
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) _ = _
  after_results_simp <;> rfl

set_option maxRecDepth 8192 in
theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) _ = _
  after_results_simp <;> rfl

set_option maxRecDepth 8192 in
theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) _ = _
  after_results_simp <;> rfl

set_option maxRecDepth 8192 in
theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) _ = _
  after_results_simp <;> rfl

set_option maxRecDepth 8192 in
theorem W3_arg6 (c : Dev nD) : W3 m ρ c (Proc.devRef .tc main_arg6) = m ((c : Thread nD τ).loc main_arg6) := by
  show StableHlo.after hostOps0_2 (StableHlo.after hostOps0_1 (StableHlo.after hostOps0 (W0 m ρ c))) _ = _
  after_results_simp <;> rfl

set_option maxRecDepth 8192 in
theorem W3_arg7 (c : Dev nD) : W3 m ρ c (Proc.devRef .tc main_arg7) = m ((c : Thread nD τ).loc main_arg7) := by
  show StableHlo.after hostOps0_2 (StableHlo.after hostOps0_1 (StableHlo.after hostOps0 (W0 m ρ c))) _ = _
  after_results_simp <;> rfl

set_option maxRecDepth 8192 in
theorem W3_arg8 (c : Dev nD) : W3 m ρ c (Proc.devRef .tc main_arg8) = m ((c : Thread nD τ).loc main_arg8) := by
  show StableHlo.after hostOps0_2 (StableHlo.after hostOps0_1 (StableHlo.after hostOps0 (W0 m ρ c))) _ = _
  after_results_simp <;> rfl

end Entry

variable (m : (ℓ : Loc nD τ sig) → Buf (Elt Ideal) ℓ) (ρ : Dev nD → PrngReg)

/-! ## At the first region's exit -/

/-- The first region's output: the node features times the first weight matrix. -/
theorem W4_v32 (c : Dev nD) : W4 m ρ c (Proc.devRef .tc main_v32) = Cert.Layers.dense1 (F := Ideal) (m ((c : Thread nD τ).loc main_arg0)) (m ((c : Thread nD τ).loc main_arg3)) := by
  refine (W4_arr m ρ c 2).trans ((Cert.KernelIdeal.Region0.array (V3 m ρ) c).trans ?_)
  show Cert.Layers.dense1 (F := Ideal) (W3 m ρ c (Proc.devRef .tc main_arg0)) (W3 m ρ c (Proc.devRef .tc main_arg3)) = _
  rw [W3_arg0, W3_arg3]

theorem W4_v5 (c : Dev nD) : W4 m ρ c (Proc.devRef .tc main_v5) = val_main_v6 (F := Ideal) (m ((c : Thread nD τ).loc main_arg1)) :=
  (W4_of_ne m ρ c main_v5 (by decide)).trans (W3_v5 m ρ c)
theorem W4_v6 (c : Dev nD) : W4 m ρ c (Proc.devRef .tc main_v6) = val_main_v7 (F := Ideal) (m ((c : Thread nD τ).loc main_arg1)) :=
  (W4_of_ne m ρ c main_v6 (by decide)).trans (W3_v6 m ρ c)
theorem W4_v31 (c : Dev nD) : W4 m ρ c (Proc.devRef .tc main_v31) = val_main_v32 (F := Ideal) (m ((c : Thread nD τ).loc main_arg1)) (m ((c : Thread nD τ).loc main_arg2)) :=
  (W4_of_ne m ρ c main_v31 (by decide)).trans (W3_v31 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)
theorem W4_arg8 (c : Dev nD) : W4 m ρ c (Proc.devRef .tc main_arg8) = m ((c : Thread nD τ).loc main_arg8) :=
  (W4_of_ne m ρ c main_arg8 (by decide)).trans (W3_arg8 m ρ c)

/-! ## At the second region's entry -/

/-- A bias vector reshaped to a one-row matrix is the reference's broadcast of it along the second axis: both read,
    at `(0, j)`, the vector's entry `j`. -/
theorem reshape_row (x : (⟨S64, .f32⟩ : BufTy).Contents (Elt Ideal)) (h : S64.ShapeCasts S1x64) :
    (fun i => shapeCast S1x64 x h i) = val_main_v46 (F := Ideal) x := by
  funext i
  rw [val_main_v46_apply]
  refine (shapeCast_addUnit_apply ![64] x h i).trans (congrArg x (funext fun a => ?_))
  match a with
  | ⟨0, _⟩ => rfl

/-- The first aggregation: the rows of the first layer's output gathered at the sources, scaled by the edges'
    normalisations and scatter-added at the targets. -/
theorem W5_v46 (c : Dev nD) : W5 m ρ c (Proc.devRef .tc main_v46) = val_main_v45 (F := Ideal) (m ((c : Thread nD τ).loc main_arg0)) (m ((c : Thread nD τ).loc main_arg1)) (m ((c : Thread nD τ).loc main_arg2)) (m ((c : Thread nD τ).loc main_arg3)) := by
  show StableHlo.after hostOps1 (W4 m ρ c) _ = _
  after_results_simp
  rw [W4_v32, W4_v5, W4_v6, W4_v31]
  rfl

/-- The first bias as a one-row matrix. -/
theorem W5_v47 (c : Dev nD) : W5 m ρ c (Proc.devRef .tc main_v47) = val_main_v46 (F := Ideal) (m ((c : Thread nD τ).loc main_arg4)) := by
  show StableHlo.after hostOps1 (W4 m ρ c) _ = _
  after_results_simp
  show (fun i => shapeCast S1x64 (W4 m ρ c (Proc.devRef .tc main_arg4)) shapeCasts_S64_S1x64 i) = _
  rw [W4_arg4]
  exact reshape_row _ _

theorem W5_v5 (c : Dev nD) : W5 m ρ c (Proc.devRef .tc main_v5) = val_main_v6 (F := Ideal) (m ((c : Thread nD τ).loc main_arg1)) := by
  show StableHlo.after hostOps1 (W4 m ρ c) _ = _
  after_results_simp
  exact W4_v5 m ρ c

theorem W5_v6 (c : Dev nD) : W5 m ρ c (Proc.devRef .tc main_v6) = val_main_v7 (F := Ideal) (m ((c : Thread nD τ).loc main_arg1)) := by
  show StableHlo.after hostOps1 (W4 m ρ c) _ = _
  after_results_simp
  exact W4_v6 m ρ c

theorem W5_v31 (c : Dev nD) : W5 m ρ c (Proc.devRef .tc main_v31) = val_main_v32 (F := Ideal) (m ((c : Thread nD τ).loc main_arg1)) (m ((c : Thread nD τ).loc main_arg2)) := by
  show StableHlo.after hostOps1 (W4 m ρ c) _ = _
  after_results_simp
  exact W4_v31 m ρ c

theorem W5_arg5 (c : Dev nD) : W5 m ρ c (Proc.devRef .tc main_arg5) = m ((c : Thread nD τ).loc main_arg5) := by
  show StableHlo.after hostOps1 (W4 m ρ c) _ = _
  after_results_simp
  exact W4_arg5 m ρ c

theorem W5_arg6 (c : Dev nD) : W5 m ρ c (Proc.devRef .tc main_arg6) = m ((c : Thread nD τ).loc main_arg6) := by
  show StableHlo.after hostOps1 (W4 m ρ c) _ = _
  after_results_simp
  exact W4_arg6 m ρ c

theorem W5_arg7 (c : Dev nD) : W5 m ρ c (Proc.devRef .tc main_arg7) = m ((c : Thread nD τ).loc main_arg7) := by
  show StableHlo.after hostOps1 (W4 m ρ c) _ = _
  after_results_simp
  exact W4_arg7 m ρ c

theorem W5_arg8 (c : Dev nD) : W5 m ρ c (Proc.devRef .tc main_arg8) = m ((c : Thread nD τ).loc main_arg8) := by
  show StableHlo.after hostOps1 (W4 m ρ c) _ = _
  after_results_simp
  exact W4_arg8 m ρ c

/-! ## At the second region's exit -/

/-- The second region's output: the second layer's dense part, `max (agg₁ + b₁, 0) · W₂`. -/
theorem W6_v48 (c : Dev nD) : W6 m ρ c (Proc.devRef .tc main_v48) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 3).trans ((Cert.KernelIdeal.Region1.array (V5 m ρ) c).trans ?_)
  show Cert.Layers.dense2 (F := Ideal) (W5 m ρ c (Proc.devRef .tc main_v46)) (W5 m ρ c (Proc.devRef .tc main_v47))
    (W5 m ρ c (Proc.devRef .tc main_arg5)) = _
  rw [W5_v46, W5_v47, W5_arg5]
  rfl

theorem W6_v5 (c : Dev nD) : W6 m ρ c (Proc.devRef .tc main_v5) = val_main_v6 (F := Ideal) (m ((c : Thread nD τ).loc main_arg1)) :=
  (W6_of_ne m ρ c main_v5 (by decide)).trans (W5_v5 m ρ c)
theorem W6_v6 (c : Dev nD) : W6 m ρ c (Proc.devRef .tc main_v6) = val_main_v7 (F := Ideal) (m ((c : Thread nD τ).loc main_arg1)) :=
  (W6_of_ne m ρ c main_v6 (by decide)).trans (W5_v6 m ρ c)
theorem W6_v31 (c : Dev nD) : W6 m ρ c (Proc.devRef .tc main_v31) = val_main_v32 (F := Ideal) (m ((c : Thread nD τ).loc main_arg1)) (m ((c : Thread nD τ).loc main_arg2)) :=
  (W6_of_ne m ρ c main_v31 (by decide)).trans (W5_v31 m ρ c)
theorem W6_arg6 (c : Dev nD) : W6 m ρ c (Proc.devRef .tc main_arg6) = m ((c : Thread nD τ).loc main_arg6) :=
  (W6_of_ne m ρ c main_arg6 (by decide)).trans (W5_arg6 m ρ c)
theorem W6_arg7 (c : Dev nD) : W6 m ρ c (Proc.devRef .tc main_arg7) = m ((c : Thread nD τ).loc main_arg7) :=
  (W6_of_ne m ρ c main_arg7 (by decide)).trans (W5_arg7 m ρ c)
theorem W6_arg8 (c : Dev nD) : W6 m ρ c (Proc.devRef .tc main_arg8) = m ((c : Thread nD τ).loc main_arg8) :=
  (W6_of_ne m ρ c main_arg8 (by decide)).trans (W5_arg8 m ρ c)

/-! ## At the third region's entry -/

/-- The second aggregation, of the second layer's dense part (the reference computes the edges' normalisations a
    second time there: the same operations of the same operands). -/
theorem W7_v62 (c : Dev nD) : W7 m ρ c (Proc.devRef .tc main_v62) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W6 m ρ c) _ = _
  after_results_simp
  rw [W6_v48, W6_v5, W6_v6, W6_v31]
  rfl

/-- The second bias as a one-row matrix. -/
theorem W7_v63 (c : Dev nD) : W7 m ρ c (Proc.devRef .tc main_v63) = val_main_v92 (F := Ideal) (m ((c : Thread nD τ).loc main_arg6)) := by
  show StableHlo.after hostOps2 (W6 m ρ c) _ = _
  after_results_simp
  show (fun i => shapeCast S1x64 (W6 m ρ c (Proc.devRef .tc main_arg6)) shapeCasts_S64_S1x64 i) = _
  rw [W6_arg6]
  exact reshape_row _ _

/-- A one-entry vector reshaped to a 1×1 matrix is the reference's broadcast of it: both hold its one entry. -/
theorem reshape_one (x : (⟨S1, .f32⟩ : BufTy).Contents (Elt Ideal)) (h : S1.ShapeCasts S1x1) :
    (fun i => shapeCast S1x1 x h i) = val_main_v97 (F := Ideal) x := by
  funext i
  rw [val_main_v97_apply]
  refine (shapeCast_addUnit_apply ![1] x h i).trans (congrArg x (funext fun a => ?_))
  match a with
  | ⟨0, _⟩ => exact Fin.ext (Nat.lt_one_iff.mp (i 1).isLt)

/-- The last bias as a 1×1 matrix. -/
theorem W7_v64 (c : Dev nD) : W7 m ρ c (Proc.devRef .tc main_v64) = val_main_v97 (F := Ideal) (m ((c : Thread nD τ).loc main_arg8)) := by
  show StableHlo.after hostOps2 (W6 m ρ c) _ = _
  after_results_simp
  show (fun i => shapeCast S1x1 (W6 m ρ c (Proc.devRef .tc main_arg8)) shapeCasts_S1_S1x1 i) = _
  rw [W6_arg8]
  exact reshape_one _ _

theorem W7_arg7 (c : Dev nD) : W7 m ρ c (Proc.devRef .tc main_arg7) = m ((c : Thread nD τ).loc main_arg7) := by
  show StableHlo.after hostOps2 (W6 m ρ c) _ = _
  after_results_simp
  exact W6_arg7 m ρ c

/-! ## The result -/

/-- What the third region's write-backs leave of its output window: the reference's result stage of the arguments. -/
theorem result (c : Dev nD) :
    (dat2 (V7 m ρ) c).arrAt 4 cfg2.N = val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (Cert.KernelIdeal.Region2.array (V7 m ρ) c).trans ?_
  show Cert.Layers.dense3 (F := Ideal) (W7 m ρ c (Proc.devRef .tc main_v62)) (W7 m ρ c (Proc.devRef .tc main_v63))
    (W7 m ρ c (Proc.devRef .tc main_arg7)) (W7 m ρ c (Proc.devRef .tc main_v64)) = _
  rw [W7_v62, W7_v63, W7_arg7, W7_v64]
  rfl

end Cert.KernelIdeal.HostValues

end
-- ==== Proof.lean ====
/-
  The certificate of a two-layer graph convolution network written as three device kernels among host operations,
  against its plain array reference, over the extended reals.

  Both programs compute, from the node features `x`, the edge list, the edge weights and the layers' weights and
  biases: the edges extended by one self-loop per node, each edge's symmetric normalisation
  `deg(src)^(-1/2) · w · deg(dst)^(-1/2)` (the degrees by a scatter-add of the weights, zero where the degree is not
  positive), and then twice "dense layer, aggregate over the edges" — gather the rows at the sources, scale by the
  normalisation, scatter-add at the targets — and a last dense layer onto one output column.  The kernel program runs
  each dense layer as a device kernel over five blocks of 10000 rows, fusing the previous layer's bias and clamp into
  it, and keeps the intermediate matrices in a narrower float format; the reference runs whole-array matrix products.
  On the extended reals a change of float format is the identity, a row's product with a matrix does not depend on the
  other rows, and a matrix product into a zero accumulator is the plain sum over the contracted axis on both sides; so
  every value the kernel program holds between its regions IS the reference's stage there, and the two results are one
  function of the arguments.  No finiteness is used: nothing is rearranged inside a sum.

  `preserves` is trivial (the idealization rewrote nothing); the three frames are the generated ones (the reference's
  its run with the result dropped).
-/
import proofs.«130539_j47115791237145_2_alg».proof.Defs
import proofs.«130539_j47115791237145_2_alg».proof.Proof.Gen.Kernel
import proofs.«130539_j47115791237145_2_alg».proof.Proof.Gen.Kernel.Frame
import proofs.«130539_j47115791237145_2_alg».proof.Proof.Gen.KernelIdeal
import proofs.«130539_j47115791237145_2_alg».proof.Proof.Gen.KernelIdeal.Frame
import proofs.«130539_j47115791237145_2_alg».proof.Proof.Gen.ReferenceIdeal
import proofs.«130539_j47115791237145_2_alg».proof.Proof.Gen.ReferenceIdeal.Run
import proofs.«130539_j47115791237145_2_alg».proof.Proof.Gen.ReferenceIdeal.Read
import proofs.«130539_j47115791237145_2_alg».proof.Proof.Gen.Pre_finite_inputs
import proofs.«130539_j47115791237145_2_alg».proof.Proof.KRun
import proofs.«130539_j47115791237145_2_alg».proof.Proof.KValue
import Idealize.ShloMosaic.Adequacy
import Idealize.ShloMosaic.Init

noncomputable section

namespace Cert.Proof

open Idealize.ShloMosaic Idealize.SL.Sem

/-- The word-level kernel program runs and leaves its arguments as launched (the generated frame). -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the same array: the reference's result stage of the (agreeing) arguments. -/
theorem algebraic : Cert.algebraic_KernelIdeal_ReferenceIdeal := by
  intro m ρ m' ρ' _ hagree
  refine ⟨fun c => Cert.ReferenceIdeal.Read.val_main_v99 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.HostValues.result m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v99_eq, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
